-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S256x1024 : Shape := ⟨2, ![256, 1024]⟩
abbrev S1024x256 : Shape := ⟨2, ![1024, 256]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x1x1024x1024 .f32) (main_arg1 : FVec F S256x1024 .f32) (main_arg2 : FVec F S1024x256 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S16x1x1024x1024 : Shape := ⟨4, ![16, 1, 1024, 1024]⟩
abbrev S256x1024 : Shape := ⟨2, ![256, 1024]⟩
abbrev S1024x256 : Shape := ⟨2, ![1024, 256]⟩
abbrev S1x1x512x1024 : Shape := ⟨4, ![1, 1, 512, 1024]⟩
abbrev S512x1024 : Shape := ⟨2, ![512, 1024]⟩
abbrev S16x32x32x32 : Shape := ⟨4, ![16, 32, 32, 32]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S256x1024, .f32⟩
  | .hbm, ⟨2, _⟩ => ⟨S1024x256, .f32⟩
  | .hbm, ⟨3, _⟩ => ⟨S16x1x1024x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S256x1024, .f32⟩
  | .local _ .vmem, ⟨3, _⟩ => ⟨S1024x256, .f32⟩
  | .local _ .vmem, ⟨4, _⟩ => ⟨S1x1x512x1024, .f32⟩
  | .local _ .vmem, ⟨5, _⟩ => ⟨S1x1x512x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  shapeCasts_S512x1024_S16x32x32x32 : S512x1024.ShapeCasts S16x32x32x32
  transposes_S16x32x32x32_p0_2_1_3_S16x32x32x32 : S16x32x32x32.Transposes [0, 2, 1, 3] S16x32x32x32
  shapeCasts_S16x32x32x32_S512x1024 : S16x32x32x32.ShapeCasts S512x1024
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  shapeCasts_S512x1024_S1x1x512x1024 : S512x1024.ShapeCasts S1x1x512x1024
  dot_S512x1024_S256x1024_S512x256_1_1_0_0_n_n_wf : DotDims.WF S512x1024 S256x1024 S512x256 [1] [1] [0] [0] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S16x1x1024x1024.size a
  hwx0_0 : ∀ i : grid0.Coords, EltTy.bits .f32 = 32 ∨ (Rect.block (s := S16x1x1024x1024) S1x1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S16x1x1024x1024.size a
  hwx0_3 : ∀ i : grid0.Coords, EltTy.bits .f32 = 32 ∨ (Rect.block (s := S16x1x1024x1024) S1x1x512x1024.size (cc0_transform_3 i) (hinb0_3 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S256x1024 : Shape := ⟨2, ![256, 1024]⟩
abbrev S1024x256 : Shape := ⟨2, ![1024, 256]⟩
abbrev S16x1x32x32x32x32 : Shape := ⟨6, ![16, 1, 32, 32, 32, 32]⟩
abbrev S16x32x32x1x32x32 : Shape := ⟨6, ![16, 32, 32, 1, 32, 32]⟩
abbrev S16x1024x1024 : Shape := ⟨3, ![16, 1024, 1024]⟩
abbrev S16x1024x256 : Shape := ⟨3, ![16, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S256x1024, .f32⟩
  | .hbm, ⟨2, _⟩ => ⟨S1024x256, .f32⟩
  | .hbm, ⟨3, _⟩ => ⟨S16x1x32x32x32x32, .f32⟩
  | .hbm, ⟨4, _⟩ => ⟨S16x32x32x1x32x32, .f32⟩
  | .hbm, ⟨5, _⟩ => ⟨S16x1024x1024, .f32⟩
  | .hbm, ⟨6, _⟩ => ⟨S16x1024x256, .f32⟩
  | .hbm, ⟨7, _⟩ => ⟨S16x1024x1024, .f32⟩
  | .hbm, ⟨8, _⟩ => ⟨S16x32x32x1x32x32, .f32⟩
  | .hbm, ⟨9, _⟩ => ⟨S16x1x32x32x32x32, .f32⟩
  | .hbm, ⟨10, _⟩ => ⟨S16x1x1024x1024, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S16x1x1024x1024_S16x1x32x32x32x32 : S16x1x1024x1024.ShapeCasts S16x1x32x32x32x32
  transposes_S16x1x32x32x32x32_S16x32x32x1x32x32_0_2_4_1_3_5 : S16x1x32x32x32x32.Transposes [0, 2, 4, 1, 3, 5] S16x32x32x1x32x32
  shapeCasts_S16x32x32x1x32x32_S16x1024x1024 : S16x32x32x1x32x32.ShapeCasts S16x1024x1024
  shapeCasts_S16x1024x1024_S16x32x32x1x32x32 : S16x1024x1024.ShapeCasts S16x32x32x1x32x32
  transposes_S16x32x32x1x32x32_S16x1x32x32x32x32_0_3_1_4_2_5 : S16x32x32x1x32x32.Transposes [0, 3, 1, 4, 2, 5] S16x1x32x32x32x32
  shapeCasts_S16x1x32x32x32x32_S16x1x1024x1024 : S16x1x32x32x32x32.ShapeCasts S16x1x1024x1024
  dot_S16x1024x1024_S256x1024_S16x1024x256_2_1_01_0_n_n_wf : DotDims.WF S16x1024x1024 S256x1024 S16x1024x256 [2] [1] [0, 1] [0] [] []
  dot_S16x1024x256_S1024x256_S16x1024x1024_2_1_01_0_n_n_wf : DotDims.WF S16x1024x256 S1024x256 S16x1024x1024 [2] [1] [0, 1] [0] [] []

variable [Facts₀]

def dot_S16x1024x1024_S256x1024_S16x1024x256_2_1_01_0_n_n : DotDims S16x1024x1024 S256x1024 S16x1024x256 where
  lhsContracting := [2]
  rhsContracting := [1]
  lhsNonContracting := [0, 1]
  rhsNonContracting := [0]
  lhsBatch := []
  rhsBatch := []
  wf := dot_S16x1024x1024_S256x1024_S16x1024x256_2_1_01_0_n_n_wf
def dot_S16x1024x256_S1024x256_S16x1024x1024_2_1_01_0_n_n : DotDims S16x1024x256 S1024x256 S16x1024x1024 where
  lhsContracting := [2]
  rhsContracting := [1]
  lhsNonContracting := [0, 1]
  rhsNonContracting := [0]
  lhsBatch := []
  rhsBatch := []
  wf := dot_S16x1024x256_S1024x256_S16x1024x1024_2_1_01_0_n_n_wf

class Facts : Prop extends Facts₀ where

variable [Facts]
-- ==== Proof.TileMap.lean ====
/-
  The map both programs compute, as one function of the three argument arrays.

  An image of the stack is cut into 32 × 32 tiles. A tile is laid out as a row of 1024 pixels
  (pixel (r, c) of the tile at position r · 32 + c), sampled by the 256 × 1024 sampling matrix,
      meas s = ∑ k, pixel k · ws (s, k),
  and laid back by the 1024 × 256 initialisation matrix,
      rec j = ∑ s, meas s · wi (j, s);
  entry j = r · 32 + c of the result is written at pixel (r, c) of the same tile of the output.
  So output pixel (h, w) of image b is entry (h mod 32) · 32 + (w mod 32) of the reconstruction of the tile in
  tile-row h / 32 and tile-column w / 32: it depends on that tile of the input only. Nothing here is more than
  finite sums and products on the extended reals, in one fixed order; no law of the extended reals is used.
-/
import Idealize.ShloMosaic.PureOps.Ideal
import Idealize.ShloMosaic.Lib.ValueIdx

noncomputable section

namespace Cert.TileMap

open Idealize.ShloMosaic Idealize.ShloMosaic.ValueIdx

/-- The stack of 16 one-channel images of 1024 × 1024 pixels. -/
abbrev Img : Shape := ⟨4, ![16, 1, 1024, 1024]⟩
/-- A strip of one image: 512 rows (16 tile-rows), every column. -/
abbrev Strip : Shape := ⟨4, ![1, 1, 512, 1024]⟩
/-- The sampling matrix: 256 measurements of 1024 pixels. -/
abbrev Samp : Shape := ⟨2, ![256, 1024]⟩
/-- The initialisation matrix: 1024 pixels from 256 measurements. -/
abbrev Init : Shape := ⟨2, ![1024, 256]⟩

/-- Entry `j` of the reconstruction of one tile from its 1024 pixels `p`: sampled by `ws`, laid back by `wi`. -/
def recon (p : Fin 1024 → EReal) (ws : Samp.Idx → EReal) (wi : Init.Idx → EReal) (j : Fin 1024) : EReal :=
  ∑ s : Fin 256, (∑ k : Fin 1024, p k * ws (ix2 s k)) * wi (ix2 j s)

/-- Pixel `k = r · 32 + c` of the tile in tile-row `nh`, tile-column `nw` of image `b`. -/
def tilePix (x : Img.Idx → EReal) (b : Fin 16) (nh nw : Fin 32) (k : Fin 1024) : EReal :=
  x (ix4 b (0 : Fin 1) (⟨nh.val * 32 + k.val / 32, by omega⟩ : Fin 1024) (⟨nw.val * 32 + k.val % 32, by omega⟩ : Fin 1024))

/-- The same inside a strip of 16 tile-rows. -/
def stripPix (v : Strip.Idx → EReal) (kk : Fin 16) (nw : Fin 32) (k : Fin 1024) : EReal :=
  v (ix4 (0 : Fin 1) (0 : Fin 1) (⟨kk.val * 32 + k.val / 32, by omega⟩ : Fin 512) (⟨nw.val * 32 + k.val % 32, by omega⟩ : Fin 1024))

/-- The output at image `b`, row `h`, column `w`. -/
def outAt (x : Img.Idx → EReal) (ws : Samp.Idx → EReal) (wi : Init.Idx → EReal) (b : Fin 16) (h w : Fin 1024) : EReal :=
  recon (tilePix x b (⟨h.val / 32, by omega⟩ : Fin 32) (⟨w.val / 32, by omega⟩ : Fin 32)) ws wi
    (⟨h.val % 32 * 32 + w.val % 32, by omega⟩ : Fin 1024)

/-- The whole output array. -/
def out (x : Img.Idx → EReal) (ws : Samp.Idx → EReal) (wi : Init.Idx → EReal) : Img.Idx → EReal :=
  fun i => outAt x ws wi (i 0) (i 2) (i 3)

/-- What one strip's rows of the output are, from the strip alone: row `yr`, column `yc` of the strip. -/
def stripOutAt (v : Strip.Idx → EReal) (ws : Samp.Idx → EReal) (wi : Init.Idx → EReal) (yr : Fin 512) (yc : Fin 1024) : EReal :=
  recon (stripPix v (⟨yr.val / 32, by omega⟩ : Fin 16) (⟨yc.val / 32, by omega⟩ : Fin 32)) ws wi
    (⟨yr.val % 32 * 32 + yc.val % 32, by omega⟩ : Fin 1024)

/-- A strip of the output is the strip map of the same strip of the input: if `v` is rows `I2 · 512 …` of image
    `I0` of `x`, then row `yr` of the strip map of `v` is row `I2 · 512 + yr` of the output of `x`. The tile an
    output pixel depends on lies in the pixel's own strip, since a strip is a whole number of tile-rows. -/
theorem stripOutAt_eq (x : Img.Idx → EReal) (ws : Samp.Idx → EReal) (wi : Init.Idx → EReal) (v : Strip.Idx → EReal)
    (b : Fin 16) (I2 : Nat) (hI2 : I2 < 2)
    (hv : ∀ (r : Fin 512) (cc : Fin 1024),
      v (ix4 (0 : Fin 1) (0 : Fin 1) r cc) = x (ix4 b (0 : Fin 1) (⟨I2 * 512 + r.val, by omega⟩ : Fin 1024) cc))
    (yr : Fin 512) (yc : Fin 1024) :
    stripOutAt v ws wi yr yc = outAt x ws wi b (⟨I2 * 512 + yr.val, by omega⟩ : Fin 1024) yc := by
  unfold stripOutAt outAt
  have hp : stripPix v (⟨yr.val / 32, by omega⟩ : Fin 16) (⟨yc.val / 32, by omega⟩ : Fin 32)
      = tilePix x b (⟨(I2 * 512 + yr.val) / 32, by omega⟩ : Fin 32) (⟨yc.val / 32, by omega⟩ : Fin 32) := by
    funext k
    unfold stripPix tilePix
    rw [hv]
    refine congrArg x ?_
    refine congrArg (fun r : Fin 1024 => ix4 b (0 : Fin 1) r _) (Fin.ext ?_)
    show I2 * 512 + (yr.val / 32 * 32 + k.val / 32) = (I2 * 512 + yr.val) / 32 * 32 + k.val / 32
    omega
  have hj : (⟨yr.val % 32 * 32 + yc.val % 32, by omega⟩ : Fin 1024)
      = (⟨(I2 * 512 + yr.val) % 32 * 32 + yc.val % 32, by omega⟩ : Fin 1024) := Fin.ext (by
    show yr.val % 32 * 32 + yc.val % 32 = (I2 * 512 + yr.val) % 32 * 32 + yc.val % 32
    omega)
  rw [hp, hj]

end Cert.TileMap

end
-- ==== Proof.RefTileMap.lean ====
/-
  The reference program is the tile map.

  Read at an index, stage by stage. The reference first views the image stack [16, 1, 1024, 1024] as
  [16, 1, 32, 32, 32, 32] (image, channel, tile-row, row in tile, tile-column, column in tile), moves the two tile
  coordinates in front of the channel, and flattens to [16, 1024, 1024]: row nh · 32 + nw of image b is the tile
  (nh, nw) as a row of 1024 pixels. Two matrix products follow, each against the transposed weight: a sum over the
  1024 pixels, then a sum over the 256 measurements. The three layout steps are then undone. Each reshape is read
  through the row-major position of an index, which is a base-32 expansion of the same number on both sides.
-/
import proofs.«124884_j4681514353454_2_alg».proof.Proof.TileMap
import proofs.«124884_j4681514353454_2_alg».proof.Proof.Gen.ReferenceIdeal.Read
import Idealize.ShloMosaic.Lib.ValueIdxRank6

noncomputable section

namespace Cert.ReferenceIdeal.RefValue

open Cert.ReferenceIdeal Cert.ReferenceIdeal.Gen Cert.ReferenceIdeal.Read Cert.TileMap
open Idealize.ShloMosaic Idealize.ShloMosaic.ValueIdx

variable (x0 : Img.Idx → EReal) (x1 : Samp.Idx → EReal) (x2 : Init.Idx → EReal)

/-- The six-axis view of the image stack: tile-row `nh`, row `r` in the tile, tile-column `nw`, column `c` in the
    tile is pixel (nh · 32 + r, nw · 32 + c). -/
theorem v0_at (b : Fin 16) (z : Fin 1) (nh r nw c : Fin 32) :
    val_main_v0 (F := Ideal) x0 (ix6 b z nh r nw c)
      = x0 (ix4 b z (⟨nh.val * 32 + r.val, by omega⟩ : Fin 1024) (⟨nw.val * 32 + c.val, by omega⟩ : Fin 1024)) := by
  unfold val_main_v0
  refine shapeCast_apply _ _ _ _ ?_
  rw [Shape.rowMajor_val_four, Shape.rowMajor_val_six]
  show ((b.val * 1 + z.val) * 1024 + (nh.val * 32 + r.val)) * 1024 + (nw.val * 32 + c.val)
    = ((((b.val * 1 + z.val) * 32 + nh.val) * 32 + r.val) * 32 + nw.val) * 32 + c.val
  omega

/-- The tile coordinates moved in front of the channel. -/
theorem v1_at (b : Fin 16) (nh nw : Fin 32) (z : Fin 1) (r c : Fin 32) :
    val_main_v1 (F := Ideal) x0 (ix6 b nh nw z r c) = val_main_v0 (F := Ideal) x0 (ix6 b z nh r nw c) := by
  rw [val_main_v1_apply]
  refine congrArg (val_main_v0 (F := Ideal) x0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- Flattened: row nh · 32 + nw of image `b` is the tile (nh, nw), entry k its pixel (k / 32, k mod 32). -/
theorem v2_at (b : Fin 16) (nh nw : Fin 32) (k : Fin 1024) :
    val_main_v2 (F := Ideal) x0 (ix3 b (⟨nh.val * 32 + nw.val, by omega⟩ : Fin 1024) k) = tilePix x0 b nh nw k := by
  unfold val_main_v2 tilePix
  refine (shapeCast_apply _ _ _ (ix6 b nh nw (0 : Fin 1) (⟨k.val / 32, by omega⟩ : Fin 32) (⟨k.val % 32, by omega⟩ : Fin 32)) ?_).trans ?_
  · rw [Shape.rowMajor_val_six, Shape.rowMajor_val_three]
    show ((((b.val * 32 + nh.val) * 32 + nw.val) * 1 + 0) * 32 + k.val / 32) * 32 + k.val % 32
      = (b.val * 1024 + (nh.val * 32 + nw.val)) * 1024 + k.val
    omega
  · rw [v1_at, v0_at]

/-- The first product: measurement `s` of tile row `P` is the sum over the tile's pixels against row `s` of the
    sampling matrix. -/
theorem v3_at (b : Fin 16) (P : Fin 1024) (s : Fin 256) :
    val_main_v3 (F := Ideal) x0 x1 (ix3 b P s)
      = ∑ k : Fin 1024, val_main_v2 (F := Ideal) x0 (ix3 b P k) * x1 (ix2 s k) := by
  rw [val_main_v3_apply]
  refine Finset.sum_congr rfl fun k _ => ?_
  have el : lidx_main_v3 (ix3 b P s) k = ix3 b P k := funext fun a => by
    match a with
    | ⟨0, _⟩ => rfl
    | ⟨1, _⟩ => rfl
    | ⟨2, _⟩ => rfl
  have er : ridx_main_v3 (ix3 b P s) k = ix2 s k := funext fun a => by
    match a with
    | ⟨0, _⟩ => rfl
    | ⟨1, _⟩ => rfl
  rw [el, er]

/-- The second product: entry `j` of the reconstruction is the sum over the measurements against row `j` of the
    initialisation matrix. -/
theorem v4_at (b : Fin 16) (P : Fin 1024) (j : Fin 1024) :
    val_main_v4 (F := Ideal) x0 x1 x2 (ix3 b P j)
      = ∑ s : Fin 256, val_main_v3 (F := Ideal) x0 x1 (ix3 b P s) * x2 (ix2 j s) := by
  rw [val_main_v4_apply]
  refine Finset.sum_congr rfl fun s _ => ?_
  have el : lidx_main_v4 (ix3 b P j) s = ix3 b P s := funext fun a => by
    match a with
    | ⟨0, _⟩ => rfl
    | ⟨1, _⟩ => rfl
    | ⟨2, _⟩ => rfl
  have er : ridx_main_v4 (ix3 b P j) s = ix2 j s := funext fun a => by
    match a with
    | ⟨0, _⟩ => rfl
    | ⟨1, _⟩ => rfl
  rw [el, er]

/-- Row nh · 32 + nw of the products is the reconstruction of tile (nh, nw). -/
theorem v4_recon (b : Fin 16) (nh nw : Fin 32) (j : Fin 1024) :
    val_main_v4 (F := Ideal) x0 x1 x2 (ix3 b (⟨nh.val * 32 + nw.val, by omega⟩ : Fin 1024) j)
      = recon (tilePix x0 b nh nw) x1 x2 j := by
  rw [v4_at]
  unfold recon
  refine Finset.sum_congr rfl fun s _ => ?_
  rw [v3_at]
  refine congrArg (· * x2 (ix2 j s)) (Finset.sum_congr rfl fun k _ => ?_)
  rw [v2_at]

/-- The products viewed on six axes again. -/
theorem v5_at (b : Fin 16) (nh nw : Fin 32) (z : Fin 1) (r c : Fin 32) :
    val_main_v5 (F := Ideal) x0 x1 x2 (ix6 b nh nw z r c)
      = val_main_v4 (F := Ideal) x0 x1 x2 (ix3 b (⟨nh.val * 32 + nw.val, by omega⟩ : Fin 1024) (⟨r.val * 32 + c.val, by omega⟩ : Fin 1024)) := by
  unfold val_main_v5
  refine shapeCast_apply _ _ _ _ ?_
  rw [Shape.rowMajor_val_three, Shape.rowMajor_val_six]
  have hz := z.isLt
  show (b.val * 1024 + (nh.val * 32 + nw.val)) * 1024 + (r.val * 32 + c.val)
    = ((((b.val * 32 + nh.val) * 32 + nw.val) * 1 + z.val) * 32 + r.val) * 32 + c.val
  omega

/-- The channel moved back in front of the tile coordinates. -/
theorem v6_at (b : Fin 16) (z : Fin 1) (nh r nw c : Fin 32) :
    val_main_v6 (F := Ideal) x0 x1 x2 (ix6 b z nh r nw c) = val_main_v5 (F := Ideal) x0 x1 x2 (ix6 b nh nw z r c) := by
  rw [val_main_v6_apply]
  refine congrArg (val_main_v5 (F := Ideal) x0 x1 x2) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The result as an image stack: pixel (h, w) sits at tile (h / 32, w / 32), position (h mod 32, w mod 32). -/
theorem v7_at (b : Fin 16) (z : Fin 1) (h w : Fin 1024) :
    val_main_v7 (F := Ideal) x0 x1 x2 (ix4 b z h w)
      = val_main_v6 (F := Ideal) x0 x1 x2 (ix6 b z (⟨h.val / 32, by omega⟩ : Fin 32) (⟨h.val % 32, by omega⟩ : Fin 32)
          (⟨w.val / 32, by omega⟩ : Fin 32) (⟨w.val % 32, by omega⟩ : Fin 32)) := by
  unfold val_main_v7
  refine shapeCast_apply _ _ _ _ ?_
  rw [Shape.rowMajor_val_six, Shape.rowMajor_val_four]
  show ((((b.val * 1 + z.val) * 32 + h.val / 32) * 32 + h.val % 32) * 32 + w.val / 32) * 32 + w.val % 32
    = ((b.val * 1 + z.val) * 1024 + h.val) * 1024 + w.val
  omega

/-- The reference's result is the tile map of its arguments. -/
theorem result_eq : val_main_v7 (F := Ideal) x0 x1 x2 = out x0 x1 x2 := by
  funext i
  obtain ⟨b, z, h, w, rfl⟩ : ∃ (b : Fin 16) (z : Fin 1) (h w : Fin 1024), i = ix4 b z h w :=
    ⟨i 0, i 1, i 2, i 3, eq_ix4 i⟩
  rw [v7_at, v6_at, v5_at, v4_recon]
  rfl

end Cert.ReferenceIdeal.RefValue

end
-- ==== Proof.StripBody.lean ====
/-
  The kernel's body at an index.

  One grid point holds a strip of one image: 512 rows (16 tile-rows) and all 1024 columns. The body views the strip
  as [16, 32, 32, 32] (tile-row, row in tile, tile-column, column in tile), swaps the two middle axes and flattens
  to [512, 1024]: row kk · 32 + nw is the tile (kk, nw) as a row of 1024 pixels. It multiplies by the transposed
  sampling matrix and then by the transposed initialisation matrix, each product into a zero accumulator, so each
  is the plain sum over the contracted axis, and undoes the three layout steps. So the strip it stores is the strip
  map of the strip it loaded.
-/
import proofs.«124884_j4681514353454_2_alg».proof.Proof.TileMap
import proofs.«124884_j4681514353454_2_alg».proof.Proof.Gen.KernelIdeal.Skeleton
import Idealize.ShloMosaic.Lib.Pipeline.Value
import Idealize.ShloMosaic.PureOps.Ideal.Laws

noncomputable section

namespace Cert.KernelIdeal.PayValue

open Cert.KernelIdeal Cert.KernelIdeal.Gen Cert.TileMap
open Idealize.ShloMosaic Idealize.ShloMosaic.ValueIdx

/-! ## The layout steps -/

section layout
variable {α : Type}

/-- The strip as a matrix of tiles: one tile per row, its 1024 pixels along the row. -/
def tilesOf (v0 : S1x1x512x1024.Idx → α) : S512x1024.Idx → α :=
  shapeCast S512x1024
    (transpose S16x32x32x32 [0, 2, 1, 3]
      (shapeCast S16x32x32x32 (shapeCast S512x1024 v0 shapeCasts_S1x1x512x1024_S512x1024) shapeCasts_S512x1024_S16x32x32x32)
      transposes_S16x32x32x32_p0_2_1_3_S16x32x32x32)
    shapeCasts_S16x32x32x32_S512x1024

/-- A matrix of tiles laid back as a strip. -/
def stripOf (v8 : S512x1024.Idx → α) : S1x1x512x1024.Idx → α :=
  shapeCast S1x1x512x1024
    (shapeCast S512x1024
      (transpose S16x32x32x32 [0, 2, 1, 3] (shapeCast S16x32x32x32 v8 shapeCasts_S512x1024_S16x32x32x32)
        transposes_S16x32x32x32_p0_2_1_3_S16x32x32x32)
      shapeCasts_S16x32x32x32_S512x1024)
    shapeCasts_S512x1024_S1x1x512x1024

/-- Row kk · 32 + nw of the matrix of tiles, entry k: pixel (k / 32, k mod 32) of tile (kk, nw) of the strip. -/
theorem tilesOf_at (v0 : S1x1x512x1024.Idx → α) (kk : Fin 16) (nw : Fin 32) (k : Fin 1024) :
    tilesOf v0 (ix2 (⟨kk.val * 32 + nw.val, by omega⟩ : Fin 512) k)
      = v0 (ix4 (0 : Fin 1) (0 : Fin 1) (⟨kk.val * 32 + k.val / 32, by omega⟩ : Fin 512) (⟨nw.val * 32 + k.val % 32, by omega⟩ : Fin 1024)) := by
  unfold tilesOf
  refine (shapeCast_apply _ _ _ (ix4 kk nw (⟨k.val / 32, by omega⟩ : Fin 32) (⟨k.val % 32, by omega⟩ : Fin 32)) ?_).trans ?_
  · rw [Shape.rowMajor_val_four, Shape.rowMajor_val_two]
    show ((kk.val * 32 + nw.val) * 32 + k.val / 32) * 32 + k.val % 32 = (kk.val * 32 + nw.val) * 1024 + k.val
    omega
  refine (transpose_apply _ _ _ _ (ix4 kk (⟨k.val / 32, by omega⟩ : Fin 32) nw (⟨k.val % 32, by omega⟩ : Fin 32))
    (fun b => match b with
      | ⟨0, _⟩ => rfl
      | ⟨1, _⟩ => rfl
      | ⟨2, _⟩ => rfl
      | ⟨3, _⟩ => rfl)).trans ?_
  refine (shapeCast_apply _ _ _ (ix2 (⟨kk.val * 32 + k.val / 32, by omega⟩ : Fin 512) (⟨nw.val * 32 + k.val % 32, by omega⟩ : Fin 1024)) ?_).trans ?_
  · rw [Shape.rowMajor_val_two, Shape.rowMajor_val_four]
    show (kk.val * 32 + k.val / 32) * 1024 + (nw.val * 32 + k.val % 32)
      = ((kk.val * 32 + k.val / 32) * 32 + nw.val) * 32 + k.val % 32
    omega
  refine shapeCast_apply _ _ _ _ ?_
  rw [Shape.rowMajor_val_four, Shape.rowMajor_val_two]
  show (((0 : Nat) * 1 + 0) * 512 + (kk.val * 32 + k.val / 32)) * 1024 + (nw.val * 32 + k.val % 32)
    = (kk.val * 32 + k.val / 32) * 1024 + (nw.val * 32 + k.val % 32)
  omega

/-- Row yr, column yc of the strip laid back: entry (yr mod 32) · 32 + yc mod 32 of the row of tile (yr / 32, yc / 32). -/
theorem stripOf_at (v8 : S512x1024.Idx → α) (z1 z2 : Fin 1) (yr : Fin 512) (yc : Fin 1024) :
    stripOf v8 (ix4 z1 z2 yr yc)
      = v8 (ix2 (⟨yr.val / 32 * 32 + yc.val / 32, by omega⟩ : Fin 512) (⟨yr.val % 32 * 32 + yc.val % 32, by omega⟩ : Fin 1024)) := by
  unfold stripOf
  refine (shapeCast_apply _ _ _ (ix2 yr yc) ?_).trans ?_
  · rw [Shape.rowMajor_val_two, Shape.rowMajor_val_four]
    have h1 := z1.isLt
    have h2 := z2.isLt
    show yr.val * 1024 + yc.val = ((z1.val * 1 + z2.val) * 512 + yr.val) * 1024 + yc.val
    omega
  refine (shapeCast_apply _ _ _ (ix4 (⟨yr.val / 32, by omega⟩ : Fin 16) (⟨yr.val % 32, by omega⟩ : Fin 32)
      (⟨yc.val / 32, by omega⟩ : Fin 32) (⟨yc.val % 32, by omega⟩ : Fin 32)) ?_).trans ?_
  · rw [Shape.rowMajor_val_four, Shape.rowMajor_val_two]
    show ((yr.val / 32 * 32 + yr.val % 32) * 32 + yc.val / 32) * 32 + yc.val % 32 = yr.val * 1024 + yc.val
    omega
  refine (transpose_apply _ _ _ _ (ix4 (⟨yr.val / 32, by omega⟩ : Fin 16) (⟨yc.val / 32, by omega⟩ : Fin 32)
      (⟨yr.val % 32, by omega⟩ : Fin 32) (⟨yc.val % 32, by omega⟩ : Fin 32))
    (fun b => match b with
      | ⟨0, _⟩ => rfl
      | ⟨1, _⟩ => rfl
      | ⟨2, _⟩ => rfl
      | ⟨3, _⟩ => rfl)).trans ?_
  refine shapeCast_apply _ _ _ _ ?_
  rw [Shape.rowMajor_val_two, Shape.rowMajor_val_four]
  show (yr.val / 32 * 32 + yc.val / 32) * 1024 + (yr.val % 32 * 32 + yc.val % 32)
    = ((yr.val / 32 * 32 + yc.val / 32) * 32 + yr.val % 32) * 32 + yc.val % 32
  omega

end layout

/-! ## The two products -/

theorem lhs7_0 (i : S512x256.Idx) (q : dot_S512x1024_S256x1024_S512x256_1_1_0_0_n_n.contr.Idx) : (dot_S512x1024_S256x1024_S512x256_1_1_0_0_n_n.lhsIdx i q 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem lhs7_1 (i : S512x256.Idx) (q : dot_S512x1024_S256x1024_S512x256_1_1_0_0_n_n.contr.Idx) : (dot_S512x1024_S256x1024_S512x256_1_1_0_0_n_n.lhsIdx i q 1).val = (q ⟨0, by decide⟩).val :=
  dot_S512x1024_S256x1024_S512x256_1_1_0_0_n_n.lhsIdx_val_of_single rfl i q
theorem rhs7_0 (i : S512x256.Idx) (q : dot_S512x1024_S256x1024_S512x256_1_1_0_0_n_n.contr.Idx) : (dot_S512x1024_S256x1024_S512x256_1_1_0_0_n_n.rhsIdx i q 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem rhs7_1 (i : S512x256.Idx) (q : dot_S512x1024_S256x1024_S512x256_1_1_0_0_n_n.contr.Idx) : (dot_S512x1024_S256x1024_S512x256_1_1_0_0_n_n.rhsIdx i q 1).val = (q ⟨0, by decide⟩).val :=
  dot_S512x1024_S256x1024_S512x256_1_1_0_0_n_n.rhsIdx_val_of_single rfl i q

/-- The first product into a zero accumulator: measurement `s` of the tile in row `P`. -/
theorem measure_at (a : FVec Ideal S512x1024 .f32) (ws : FVec Ideal S256x1024 .f32) (P : Fin 512) (s : Fin 256) :
    matmul (F := Ideal) dot_S512x1024_S256x1024_S512x256_1_1_0_0_n_n (some .fp32) a ws (constant (F := Ideal) S512x256 .f32 0x00000000#32) (ix2 P s)
      = ∑ k : Fin 1024, a (ix2 P k) * ws (ix2 s k) := by
  simp only [matmul]
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 P s) ((contrEquiv1 dot_S512x1024_S256x1024_S512x256_1_1_0_0_n_n 1024 rfl rfl).symm k) = ix2 P k := funext fun a => Fin.ext (by
    match a with
    | ⟨0, _⟩ => exact lhs7_0 _ _
    | ⟨1, _⟩ => exact (lhs7_1 _ _).trans hk)
  have er : dot_S512x1024_S256x1024_S512x256_1_1_0_0_n_n.rhsIdx (ix2 P s) ((contrEquiv1 dot_S512x1024_S256x1024_S512x256_1_1_0_0_n_n 1024 rfl rfl).symm k) = ix2 s k := funext fun a => Fin.ext (by
    match a with
    | ⟨0, _⟩ => exact rhs7_0 _ _
    | ⟨1, _⟩ => exact (rhs7_1 _ _).trans hk)
  rw [el, er]

theorem lhs8_0 (i : S512x1024.Idx) (q : dot_S512x256_S1024x256_S512x1024_1_1_0_0_n_n.contr.Idx) : (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs8_1 (i : S512x1024.Idx) (q : dot_S512x256_S1024x256_S512x1024_1_1_0_0_n_n.contr.Idx) : (dot_S512x256_S1024x256_S512x1024_1_1_0_0_n_n.lhsIdx i q 1).val = (q ⟨0, by decide⟩).val :=
  dot_S512x256_S1024x256_S512x1024_1_1_0_0_n_n.lhsIdx_val_of_single rfl i q
theorem rhs8_0 (i : S512x1024.Idx) (q : dot_S512x256_S1024x256_S512x1024_1_1_0_0_n_n.contr.Idx) : (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs8_1 (i : S512x1024.Idx) (q : dot_S512x256_S1024x256_S512x1024_1_1_0_0_n_n.contr.Idx) : (dot_S512x256_S1024x256_S512x1024_1_1_0_0_n_n.rhsIdx i q 1).val = (q ⟨0, by decide⟩).val :=
  dot_S512x256_S1024x256_S512x1024_1_1_0_0_n_n.rhsIdx_val_of_single rfl i q

/-- The second product into a zero accumulator: entry `j` of the reconstruction of the tile in row `P`. -/
theorem layback_at (a : FVec Ideal S512x256 .f32) (wi : FVec Ideal S1024x256 .f32) (P : Fin 512) (j : Fin 1024) :
    matmul (F := Ideal) dot_S512x256_S1024x256_S512x1024_1_1_0_0_n_n (some .fp32) a wi (constant (F := Ideal) S512x1024 .f32 0x00000000#32) (ix2 P j)
      = ∑ s : Fin 256, a (ix2 P s) * wi (ix2 j s) := by
  simp only [matmul]
  rw [Ideal.matmul_constant_zero_apply, ← Equiv.sum_comp (contrEquiv1 dot_S512x256_S1024x256_S512x1024_1_1_0_0_n_n 256 rfl rfl).symm]
  refine Finset.sum_congr rfl fun s _ => ?_
  have hk := contrEquiv1_symm_val dot_S512x256_S1024x256_S512x1024_1_1_0_0_n_n 256 rfl rfl s
  have el : dot_S512x256_S1024x256_S512x1024_1_1_0_0_n_n.lhsIdx (ix2 P j) ((contrEquiv1 dot_S512x256_S1024x256_S512x1024_1_1_0_0_n_n 256 rfl rfl).symm s) = ix2 P s := funext fun a => Fin.ext (by
    match a with
    | ⟨0, _⟩ => exact lhs8_0 _ _
    | ⟨1, _⟩ => exact (lhs8_1 _ _).trans hk)
  have er : dot_S512x256_S1024x256_S512x1024_1_1_0_0_n_n.rhsIdx (ix2 P j) ((contrEquiv1 dot_S512x256_S1024x256_S512x1024_1_1_0_0_n_n 256 rfl rfl).symm s) = ix2 j s := funext fun a => Fin.ext (by
    match a with
    | ⟨0, _⟩ => exact rhs8_0 _ _
    | ⟨1, _⟩ => exact (rhs8_1 _ _).trans hk)
  rw [el, er]

/-! ## The body's store -/

/-- The stored strip, as the layout steps around the two products. -/
theorem pay_eq (v0 : Vec Ideal S1x1x512x1024 .f32) (v5 : Vec Ideal S256x1024 .f32) (v6 : Vec Ideal S1024x256 .f32) :
    k0_pay1 (F := Ideal) v0 v5 v6
      = stripOf (α := EReal) (matmul (F := Ideal) (φ₁ := .f32) (φ₂ := .f32) dot_S512x256_S1024x256_S512x1024_1_1_0_0_n_n (some .fp32)
          (matmul (F := Ideal) (φ₁ := .f32) (φ₂ := .f32) dot_S512x1024_S256x1024_S512x256_1_1_0_0_n_n (some .fp32) (tilesOf (α := EReal) v0) v5
            (constant (F := Ideal) S512x256 .f32 0x00000000#32))
          v6 (constant (F := Ideal) S512x1024 .f32 0x00000000#32)) := rfl

/-- The stored strip is the strip map of the loaded strip. -/
theorem pay_at (v0 : Vec Ideal S1x1x512x1024 .f32) (v5 : Vec Ideal S256x1024 .f32) (v6 : Vec Ideal S1024x256 .f32)
    (z1 z2 : Fin 1) (yr : Fin 512) (yc : Fin 1024) :
    k0_pay1 (F := Ideal) v0 v5 v6 (ix4 z1 z2 yr yc) = stripOutAt v0 v5 v6 yr yc := by
  rw [pay_eq, stripOf_at]
  have hP : (⟨yr.val / 32 * 32 + yc.val / 32, by omega⟩ : Fin 512)
      = (⟨(⟨yr.val / 32, by omega⟩ : Fin 16).val * 32 + (⟨yc.val / 32, by omega⟩ : Fin 32).val, by omega⟩ : Fin 512) := rfl
  rw [layback_at]
  unfold stripOutAt recon
  refine Finset.sum_congr rfl fun s _ => ?_
  rw [measure_at]
  refine congrArg (· * v6 (ix2 _ s)) (Finset.sum_congr rfl fun k _ => ?_)
  rw [hP, tilesOf_at]
  rfl

end Cert.KernelIdeal.PayValue

end
-- ==== Proof.StripsToArray.lean ====
/-
  From strips to the whole array.

  The grid has 16 × 2 points; point (b, i) works on strip i of image b: rows i · 512 … i · 512 + 511, every column.
  It loads that strip of the input and both weight matrices whole, and writes back that strip of the output. What
  it writes is the strip map of what it loaded, and a strip of the tile map is the strip map of the same strip of
  the input, because a strip is a whole number of tile-rows. The 32 strips cover the output array: pixel row h of
  image b lies in strip h / 512. So the output array after the run is the tile map of the three argument arrays.
-/
import proofs.«124884_j4681514353454_2_alg».proof.Proof.TileMap
import proofs.«124884_j4681514353454_2_alg».proof.Proof.StripBody
import proofs.«124884_j4681514353454_2_alg».proof.Proof.Gen.KernelIdeal.Value

noncomputable section

namespace Cert.KernelIdeal.StripValue

open Cert.KernelIdeal Cert.KernelIdeal.Gen Cert.KernelIdeal.PayValue Cert.TileMap
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The index maps over the grid: the input strip and the output strip of a point are the same strip of the same
    image, and the weight matrices are taken whole. -/
theorem strip_facts : ∀ t : Fin cfg0.N,
    win0_0.index t (0 : Fin 4) = win0_3.index t (0 : Fin 4)
    ∧ win0_0.index t (1 : Fin 4) = 0
    ∧ win0_0.index t (2 : Fin 4) = win0_3.index t (2 : Fin 4)
    ∧ win0_0.index t (3 : Fin 4) = 0
    ∧ win0_3.index t (1 : Fin 4) = 0
    ∧ win0_3.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 4) < 16
    ∧ win0_3.index t (2 : Fin 4) < 2 :=
  (by decide +kernel : ∀ t : Fin grid0.N, _)

/-- Every strip of every image is some point's. -/
theorem strip_onto : ∀ (q0 : Fin 16) (q2 : Fin 2), ∃ t : Fin cfg0.N, win0_3.index t = ![q0.val, 0, q2.val, 0] :=
  (by decide +kernel : ∀ (q0 : Fin 16) (q2 : Fin 2), ∃ t : Fin grid0.N, win0_3.index t = ![q0.val, 0, q2.val, 0])

/-- One stored pixel: if `v0` is strip `I2` of image `I0` of `x` (through the embedding `e0`), and `y` sits at `i`
    in that strip, then the body's store at `y` is the tile map of `x` at `i`. -/
theorem point_eq (x : Img.Idx → EReal) (ws : Samp.Idx → EReal) (wi : Init.Idx → EReal)
    (v0 : Vec Ideal S1x1x512x1024 .f32) (v5 : Vec Ideal S256x1024 .f32) (v6 : Vec Ideal S1024x256 .f32)
    (I0 I2 : Nat) (hI0 : I0 < 16) (hI2 : I2 < 2)
    (e0 : S1x1x512x1024.Idx → S16x1x1024x1024.Idx)
    (hv0 : ∀ y, v0 y = x (e0 y))
    (he0 : ∀ y, (e0 y 0).val = I0 ∧ (e0 y 1).val = 0 ∧ (e0 y 2).val = I2 * 512 + (y 2).val ∧ (e0 y 3).val = (y 3).val)
    (hv5 : v5 = ws) (hv6 : v6 = wi)
    (y : S1x1x512x1024.Idx) (i : S16x1x1024x1024.Idx)
    (hi : (i 0).val = I0 ∧ (i 2).val = I2 * 512 + (y 2).val ∧ (i 3).val = (y 3).val) :
    k0_pay1 (F := Ideal) v0 v5 v6 y = out x ws wi i := by
  obtain ⟨z1, z2, yr, yc, rfl⟩ : ∃ (z1 z2 : Fin 1) (yr : Fin 512) (yc : Fin 1024), y = ix4 z1 z2 yr yc :=
    ⟨y 0, y 1, y 2, y 3, eq_ix4 y⟩
  subst hv5 hv6
  rw [pay_at]
  have hv : ∀ (r : Fin 512) (cc : Fin 1024),
      v0 (ix4 (0 : Fin 1) (0 : Fin 1) r cc)
        = x (ix4 (⟨I0, hI0⟩ : Fin 16) (0 : Fin 1) (⟨I2 * 512 + r.val, by omega⟩ : Fin 1024) cc) := by
    intro r cc
    rw [hv0]
    refine congrArg x (funext fun a => Fin.ext ?_)
    obtain ⟨h0, h1, h2, h3⟩ := he0 (ix4 (0 : Fin 1) (0 : Fin 1) r cc)
    match a with
    | ⟨0, _⟩ => exact h0
    | ⟨1, _⟩ => exact h1
    | ⟨2, _⟩ => exact h2
    | ⟨3, _⟩ => exact h3
  rw [stripOutAt_eq x v5 v6 v0 (⟨I0, hI0⟩ : Fin 16) I2 hI2 hv yr yc]
  have a0 : (⟨I0, hI0⟩ : Fin 16) = i 0 := Fin.ext hi.1.symm
  have a2 : (⟨I2 * 512 + yr.val, by omega⟩ : Fin 1024) = i 2 := Fin.ext hi.2.1.symm
  have a3 : yc = i 3 := Fin.ext hi.2.2.symm
  rw [a0, a2, a3]
  rfl

/-- What point `t` writes back is strip `t` of the tile map of the argument arrays. -/
theorem flushed_eq (c : Dev nD) (t : Fin cfg0.N) :
    (dats m 0 c).flushed 3 t
      = ((cfg0.win 3).blk t).view.read (Elt Ideal) (out (V m c main_arg0) (V m c main_arg1) (V m c main_arg2)) := by
  rw [Cert.KernelIdeal.Value.flushed3]
  unfold out0_3
  rw [View.canon_unit_zero zero4]
  simp only [View.ld_unit_zero (S := S1x1x512x1024) zero4, View.ld_unit_zero (S := S256x1024) zero2,
    View.ld_unit_zero (S := S1024x256) zero2]
  obtain ⟨e0, e1, e2, e3, e4, e5, e6, e7, e8, e9, b0, b2⟩ := strip_facts t
  funext y
  show k0_pay1 (F := Ideal) (iblk m c 0 t) (iblk m c 1 t) (iblk m c 2 t) y
    = out (V m c main_arg0) (V m c main_arg1) (V m c main_arg2) (((cfg0.win 3).blk t).view.emb y)
  refine point_eq (V m c main_arg0) (V m c main_arg1) (V m c main_arg2) (iblk m c 0 t) (iblk m c 1 t) (iblk m c 2 t)
    (win0_3.index t (0 : Fin 4)) (win0_3.index t (2 : Fin 4)) b0 b2
    (fun y' => ((cfg0.win 0).blk t).view.emb y') (fun _ => rfl) ?_ ?_ ?_ y _ ?_
  · intro y'
    have h0 : (y' 0).val < 1 := (y' 0).isLt
    have h1 : (y' 1).val < 1 := (y' 1).isLt
    refine ⟨?_, ?_, ?_, ?_⟩
    · show win0_0.index t (0 : Fin 4) * 1 + 1 * (y' 0).val = win0_3.index t (0 : Fin 4)
      omega
    · show win0_0.index t (1 : Fin 4) * 1 + 1 * (y' 1).val = 0
      omega
    · show win0_0.index t (2 : Fin 4) * 512 + 1 * (y' 2).val = win0_3.index t (2 : Fin 4) * 512 + (y' 2).val
      omega
    · show win0_0.index t (3 : Fin 4) * 1024 + 1 * (y' 3).val = (y' 3).val
      omega
  · funext y'
    show V m c main_arg1 (((cfg0.win 1).blk t).view.emb y') = V m c main_arg1 y'
    refine congrArg (V m c main_arg1) (funext fun a => Fin.ext ?_)
    match a with
    | ⟨0, _⟩ => show win0_1.index t (0 : Fin 2) * 256 + 1 * (y' 0).val = (y' 0).val; omega
    | ⟨1, _⟩ => show win0_1.index t (1 : Fin 2) * 1024 + 1 * (y' 1).val = (y' 1).val; omega
  · funext y'
    show V m c main_arg2 (((cfg0.win 2).blk t).view.emb y') = V m c main_arg2 y'
    refine congrArg (V m c main_arg2) (funext fun a => Fin.ext ?_)
    match a with
    | ⟨0, _⟩ => show win0_2.index t (0 : Fin 2) * 1024 + 1 * (y' 0).val = (y' 0).val; omega
    | ⟨1, _⟩ => show win0_2.index t (1 : Fin 2) * 256 + 1 * (y' 1).val = (y' 1).val; omega
  · have h0 : (y 0).val < 1 := (y 0).isLt
    refine ⟨?_, ?_, ?_⟩
    · show win0_3.index t (0 : Fin 4) * 1 + 1 * (y 0).val = win0_3.index t (0 : Fin 4)
      omega
    · show win0_3.index t (2 : Fin 4) * 512 + 1 * (y 2).val = win0_3.index t (2 : Fin 4) * 512 + (y 2).val
      omega
    · show win0_3.index t (3 : Fin 4) * 1024 + 1 * (y 3).val = (y 3).val
      omega

/-- An index of the array is in point `t`'s strip iff each coordinate is in the strip's range on its axis. -/
theorem mem_strip (t : Fin cfg0.N) (i : S16x1x1024x1024.Idx) :
    i ∈ ((cfg0.win 3).blk t).view.set
      ↔ ∀ a : Fin 4, win0_3.index t a * S1x1x512x1024.size a ≤ (i a).val
          ∧ (i a).val < win0_3.index t a * S1x1x512x1024.size a + S1x1x512x1024.size a := by
  show i ∈ ((View.whole main_v0).slice (win0_3.rect t)).set ↔ _
  rw [View.set_slice_whole, Rect.mem_set_unit]
  exact Iff.rfl

/-- Every index of the output array lies in some point's strip. -/
theorem strips_cover (i : S16x1x1024x1024.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 1024 := (i 2).isLt
  have hi3 : (i 3).val < 1024 := (i 3).isLt
  obtain ⟨t, ht⟩ := strip_onto (⟨(i 0).val, hi0⟩ : Fin 16) (⟨(i 2).val / 512, by omega⟩ : Fin 2)
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_strip]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 1 ≤ (i 1).val ∧ (i 1).val < win0_3.index t (1 : Fin 4) * 1 + 1
    omega
  | ⟨2, _⟩ =>
    show win0_3.index t (2 : Fin 4) * 512 ≤ (i 2).val ∧ (i 2).val < win0_3.index t (2 : Fin 4) * 512 + 512
    omega
  | ⟨3, _⟩ =>
    show win0_3.index t (3 : Fin 4) * 1024 ≤ (i 3).val ∧ (i 3).val < win0_3.index t (3 : Fin 4) * 1024 + 1024
    omega

/-- The output array after the run is the tile map of the argument arrays. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 _ (fun t _ => flushed_eq m c t) strips_cover

/-- The kernel's run: the result array ends at the tile map of the arguments, which end unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.StripValue

end
-- ==== Proof.lean ====
/-
  A kernel that works strip by strip against a reference that works on the whole array: a linear map applied
  tile by tile to a stack of images.

  Each of 16 one-channel images of 1024 × 1024 pixels is cut into 32 × 32 tiles of 32 × 32 pixels. A tile, read row
  by row as 1024 pixels, is sampled by a 256 × 1024 matrix and laid back by a 1024 × 256 matrix,
      rec j = ∑ s, (∑ k, pixel k · ws (s, k)) · wi (j, s),
  and entry j = r · 32 + c of the result becomes pixel (r, c) of the same tile of the output (Proof/TileMap.lean).

  The reference does this to the whole stack at once: a reshape, a transpose and a reshape bring every tile to a row,
  two matrix products follow, and the layout steps are undone (Proof/RefTileMap.lean). The kernel does it strip by
  strip, a strip being 16 tile-rows of one image, with the same steps on the strip (Proof/StripBody.lean); a strip
  is a whole number of tile-rows, so a strip of the result depends on the same strip of the input only, and the 32
  strips cover the output (Proof/StripsToArray.lean). Both are the same two nested finite sums of products of
  extended reals, term for term and in the same order; nothing is regrouped and no term is cancelled, so the
  equality holds for all extended reals and the finiteness of the inputs is not used. The kernel's products go into
  zero accumulators, which add nothing. The idealization rewrote no operation, so it has nothing to preserve.
-/
import proofs.«124884_j4681514353454_2_alg».proof.Defs
import proofs.«124884_j4681514353454_2_alg».proof.Proof.Gen.Kernel
import proofs.«124884_j4681514353454_2_alg».proof.Proof.Gen.Kernel.Skeleton
import proofs.«124884_j4681514353454_2_alg».proof.Proof.Gen.Kernel.Launch
import proofs.«124884_j4681514353454_2_alg».proof.Proof.Gen.Kernel.Points
import proofs.«124884_j4681514353454_2_alg».proof.Proof.Gen.Kernel.Frame
import proofs.«124884_j4681514353454_2_alg».proof.Proof.Gen.KernelIdeal
import proofs.«124884_j4681514353454_2_alg».proof.Proof.Gen.KernelIdeal.Skeleton
import proofs.«124884_j4681514353454_2_alg».proof.Proof.Gen.KernelIdeal.Launch
import proofs.«124884_j4681514353454_2_alg».proof.Proof.Gen.KernelIdeal.Points
import proofs.«124884_j4681514353454_2_alg».proof.Proof.Gen.KernelIdeal.Frame
import proofs.«124884_j4681514353454_2_alg».proof.Proof.Gen.ReferenceIdeal
import proofs.«124884_j4681514353454_2_alg».proof.Proof.Gen.Pre_finite_inputs
import proofs.«124884_j4681514353454_2_alg».proof.Proof.Gen.KernelIdeal.Value
import proofs.«124884_j4681514353454_2_alg».proof.Proof.Gen.ReferenceIdeal.Run
import proofs.«124884_j4681514353454_2_alg».proof.Proof.Gen.ReferenceIdeal.Read
import proofs.«124884_j4681514353454_2_alg».proof.Proof.TileMap
import proofs.«124884_j4681514353454_2_alg».proof.Proof.RefTileMap
import proofs.«124884_j4681514353454_2_alg».proof.Proof.StripBody
import proofs.«124884_j4681514353454_2_alg».proof.Proof.StripsToArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the tile map of their arguments in the result array; the
    arguments agree, so the results are equal element by element. -/
theorem algebraic : Cert.algebraic_KernelIdeal_ReferenceIdeal := by
  intro m ρ m' ρ' _ hagree
  refine ⟨_, Cert.KernelIdeal.StripValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
